-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000 .f32) (main_arg3 : FVec F S256x128 .f32) (main_arg4 : FVec F S128 .f32) (main_arg5 : FVec F S128x64 .f32) (main_arg6 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S4000x256 : Shape := ⟨2, ![4000, 256]⟩
abbrev S4000x128 : Shape := ⟨2, ![4000, 128]⟩
abbrev S1700000x128 : Shape := ⟨2, ![1700000, 128]⟩
abbrev S1x128 : Shape := ⟨2, ![1, 128]⟩
abbrev S100000x64 : Shape := ⟨2, ![100000, 64]⟩
abbrev S4000x64 : Shape := ⟨2, ![4000, 64]⟩
abbrev S1700000x64 : Shape := ⟨2, ![1700000, 64]⟩
abbrev S1x64 : Shape := ⟨2, ![1, 64]⟩

abbrev nBuf : Space → Nat
  | .hbm => 89
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .bf16⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .bf16⟩
  | .hbm, ⟨60, _⟩ => ⟨S1700000x128, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x64, .bf16⟩
  | .hbm, ⟨69, _⟩ => ⟨S1700000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .bf16⟩
  | .hbm, ⟨79, _⟩ => ⟨S1700000x64, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .bf16⟩
  | .local _ .vmem, ⟨4, _⟩ => ⟨S4000x128, .bf16⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S128x64, .f32⟩
  | .local _ .vmem, ⟨9, _⟩ => ⟨S4000x64, .bf16⟩
  | .local _ .vmem, ⟨10, _⟩ => ⟨S4000x64, .bf16⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x256_S256x128_S4000x128_1_0_0_1_n_n_wf : DotDims.WF S4000x256 S256x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .bf16 = 32 ∨ (Rect.block (s := S100000x64) S4000x64.size (cc1_transform_3 i) (hinb1_3 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 132
  | .vmem => 0
  | .smem => 0
  | _ => 0

abbrev hbmTy0_0 (i : Nat) : BufTy := match i % 128 with
  | 0 => ⟨S100000x256, .f32⟩
  | 1 => ⟨S2x1600000, .i32⟩
  | 2 => ⟨S1600000, .f32⟩
  | 3 => ⟨S256x128, .f32⟩
  | 4 => ⟨S128, .f32⟩
  | 5 => ⟨S128x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S100000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x128, .f32⟩
  | 51 => ⟨S1700000x1, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000, .i32⟩
  | 74 => ⟨S1700000, .i32⟩
  | 75 => ⟨S100000, .i32⟩
  | 76 => ⟨S1700000, .i32⟩
  | 77 => ⟨S_, .f32⟩
  | 78 => ⟨S100000, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S100000x64, .f32⟩
  | 113 => ⟨S1700000x1, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x64, .f32⟩
  | 123 => ⟨S1700000x64, .f32⟩
  | 124 => ⟨S1700000x64, .f32⟩
  | 125 => ⟨S_, .f32⟩
  | 126 => ⟨S100000x64, .f32⟩
  | 127 => ⟨S1700000x1, .i32⟩
  | _ => ⟨S100000x256, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_17 : Ref sig .tc := ⟨.hbm, 114, rfl⟩
abbrev main_v82 : Ref sig .tc := ⟨.hbm, 115, rfl⟩
abbrev main_v83 : Ref sig .tc := ⟨.hbm, 116, rfl⟩
abbrev main_c_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The two dense layers of the network as functions of whole arrays, index by index, on the extended reals.

  `layer1 x w` is the matrix product x · w of a [100000, 256] array with a [256, 128] array: entry (r, c) is the
  sum over k of x (r, k) · w (k, c).

  `layer2 a b w` is relu (a + b) · w for a [100000, 128] array a, a bias row b given as a [1, 128] array, and a
  [128, 64] array w: entry (r, c) is the sum over k of max (a (r, k) + b (0, k)) z · w (k, c), where z is the
  value of the float word zero (kept as that word: both programs spell it the same way, so it is never evaluated).
-/
import Idealize.ShloMosaic.PureOps.Ideal
import Idealize.ShloMosaic.Lib.ValueIdx

noncomputable section

namespace Cert.Spec

open Idealize.ShloMosaic Idealize.ShloMosaic.ValueIdx

abbrev SX : Shape := ⟨2, ![100000, 256]⟩
abbrev SW1 : Shape := ⟨2, ![256, 128]⟩
abbrev SH : Shape := ⟨2, ![100000, 128]⟩
abbrev SB : Shape := ⟨2, ![1, 128]⟩
abbrev SW2 : Shape := ⟨2, ![128, 64]⟩
abbrev SO : Shape := ⟨2, ![100000, 64]⟩

/-- The first layer's product: entry (r, c) is the sum over k of x (r, k) · w (k, c). -/
def layer1 (x : SX.Idx → EReal) (w : SW1.Idx → EReal) : SH.Idx → EReal :=
  fun i => ∑ k : Fin 256, x (ix2 (i 0) k) * w (ix2 k (i 1))

/-- The second layer's product after the bias and the rectifier: entry (r, c) is the sum over k of
    max (a (r, k) + b (0, k)) z · w (k, c). -/
def layer2 (a : SH.Idx → EReal) (b : SB.Idx → EReal) (w : SW2.Idx → EReal) : SO.Idx → EReal :=
  fun i => ∑ k : Fin 128, max (a (ix2 (i 0) k) + b (ix2 (0 : Fin 1) k)) (Ideal.ofBits .f32 0x00000000#32) * w (ix2 k (i 1))

end Cert.Spec

end
-- ==== Proof.RefStages.lean ====
/-
  The reference program's result in stages.  The reference computes, twice over, the normalised edge weights
  (degrees by a scatter-add of the weights, their inverse square roots where the degree is positive, the product
  of the two endpoints' factors with the weight); its first layer is the product x · w₁, gathered along the source
  endpoints, weighted, and scatter-added at the target endpoints; the bias and the rectifier follow, then the
  product with w₂, the same gather, weights and scatter-add, and the last bias.

  Here the two dense products are identified with `layer1` and `layer2`, and the two sparse aggregations are
  named as functions of ANY feature array, so that the result reads
  `aggregate2 (layer2 (aggregate1 (layer1 x w₁) …) (bias row) w₂) …`.
-/
import proofs.«144500_j29429115912800_2_alg».proof.Defs
import proofs.«144500_j29429115912800_2_alg».proof.Proof.Gen.ReferenceIdeal.Run
import proofs.«144500_j29429115912800_2_alg».proof.Proof.Gen.ReferenceIdeal.Read
import proofs.«144500_j29429115912800_2_alg».proof.Proof.Spec

noncomputable section

namespace Cert.RefStages

open Cert.ReferenceIdeal Cert.ReferenceIdeal.Gen Cert.ReferenceIdeal.Read Cert.Spec
open Idealize.ShloMosaic Idealize.ShloMosaic.TcCoe Idealize.SL.Sem Idealize.ShloMosaic.ValueIdx

/-- The edge list's contents: a [2, 1600000] array of 32-bit integers. -/
abbrev EdgeIdx : Type := (⟨S2x1600000, .i32⟩ : BufTy).Contents (Elt Idealize.ShloMosaic.Ideal)
/-- The edge weights' contents. -/
abbrev EdgeW : Type := (⟨S1600000, .f32⟩ : BufTy).Contents (Elt Idealize.ShloMosaic.Ideal)

/-- The first sparse aggregation, of any [100000, 128] feature array: its rows gathered along the source
    endpoints, each scaled by its edge's normalised weight, and added up at the target endpoints. -/
def aggregate1 (h : SH.Idx → EReal) (x1 : EdgeIdx) (x2 : EdgeW) : SH.Idx → EReal :=
  Host.scatterAdd (F := Idealize.ShloMosaic.Ideal) (φ := .f32) scatter_S100000x128_S1700000x1_S1700000x128_1_0_0_1
    (val_main_v44 (F := Idealize.ShloMosaic.Ideal)) (val_main_v45 (F := Idealize.ShloMosaic.Ideal) x1)
    (mulf (val_main_v42 (F := Idealize.ShloMosaic.Ideal) x1 x2)
      (Host.gather gather_S100000x128_S1700000x1_S1700000x128_1_0_n_n_0_1_1128 h (val_main_v40 (F := Idealize.ShloMosaic.Ideal) x1)))

/-- The second sparse aggregation, of any [100000, 64] feature array, and the last bias. -/
def aggregate2 (h : SO.Idx → EReal) (x1 : EdgeIdx) (x2 : EdgeW) (x6 : (⟨S64, .f32⟩ : BufTy).Contents (Elt Idealize.ShloMosaic.Ideal)) : SO.Idx → EReal :=
  addf (F := Idealize.ShloMosaic.Ideal) (φ := .f32)
    (Host.scatterAdd (F := Idealize.ShloMosaic.Ideal) (φ := .f32) scatter_S100000x64_S1700000x1_S1700000x64_1_0_0_1
      (val_main_v91 (F := Idealize.ShloMosaic.Ideal)) (val_main_v92 (F := Idealize.ShloMosaic.Ideal) x1)
      (mulf (val_main_v89 (F := Idealize.ShloMosaic.Ideal) x1 x2)
        (Host.gather gather_S100000x64_S1700000x1_S1700000x64_1_0_n_n_0_1_164 h (val_main_v87 (F := Idealize.ShloMosaic.Ideal) x1))))
    (val_main_v95 (F := Idealize.ShloMosaic.Ideal) x6)

/-- A bias vector as the one row of a [1, 128] array. -/
def biasRow (x4 : (⟨S128, .f32⟩ : BufTy).Contents (Elt Idealize.ShloMosaic.Ideal)) : SB.Idx → EReal := fun j => x4 (ix1 (j 1))

variable (x0 : (⟨S100000x256, .f32⟩ : BufTy).Contents (Elt Idealize.ShloMosaic.Ideal)) (x1 : EdgeIdx) (x2 : EdgeW)
  (x3 : (⟨S256x128, .f32⟩ : BufTy).Contents (Elt Idealize.ShloMosaic.Ideal))
  (x4 : (⟨S128, .f32⟩ : BufTy).Contents (Elt Idealize.ShloMosaic.Ideal))
  (x5 : (⟨S128x64, .f32⟩ : BufTy).Contents (Elt Idealize.ShloMosaic.Ideal))
  (x6 : (⟨S64, .f32⟩ : BufTy).Contents (Elt Idealize.ShloMosaic.Ideal))

/-- The reference's first product is `layer1`. -/
theorem v33_eq : val_main_v33 (F := Idealize.ShloMosaic.Ideal) x0 x3 = layer1 x0 x3 := by
  funext i
  rw [val_main_v33_apply]
  unfold layer1
  refine Finset.sum_congr rfl fun k _ => ?_
  have el : lidx_main_v33 i k = ix2 (i 0) k := funext fun a => Fin.ext (by match a with | ⟨0, _⟩ => rfl | ⟨1, _⟩ => rfl)
  have er : ridx_main_v33 i k = ix2 k (i 1) := funext fun a => Fin.ext (by match a with | ⟨0, _⟩ => rfl | ⟨1, _⟩ => rfl)
  exact congrArg₂ (· * ·) (congrArg x0 el) (congrArg x3 er)

/-- The reference's first aggregation is `aggregate1` of its first product. -/
theorem v46_eq : val_main_v46 (F := Idealize.ShloMosaic.Ideal) x0 x1 x2 x3 = aggregate1 (val_main_v33 (F := Idealize.ShloMosaic.Ideal) x0 x3) x1 x2 := rfl

/-- The reference's result is `aggregate2` of its second product. -/
theorem v96_eq : val_main_v96 (F := Idealize.ShloMosaic.Ideal) x0 x1 x2 x3 x4 x5 x6
    = aggregate2 (val_main_v80 (F := Idealize.ShloMosaic.Ideal) x0 x1 x2 x3 x4 x5) x1 x2 x6 := rfl

/-- The reference's second product, after its bias and rectifier, is `layer2` of its first aggregation. -/
theorem v80_eq : val_main_v80 (F := Idealize.ShloMosaic.Ideal) x0 x1 x2 x3 x4 x5
    = layer2 (val_main_v46 (F := Idealize.ShloMosaic.Ideal) x0 x1 x2 x3) (biasRow x4) x5 := by
  funext i
  rw [val_main_v80_apply]
  unfold layer2
  refine Finset.sum_congr rfl fun k _ => ?_
  have el : lidx_main_v80 i k = ix2 (i 0) k := funext fun a => Fin.ext (by match a with | ⟨0, _⟩ => rfl | ⟨1, _⟩ => rfl)
  have er : ridx_main_v80 i k = ix2 k (i 1) := funext fun a => Fin.ext (by match a with | ⟨0, _⟩ => rfl | ⟨1, _⟩ => rfl)
  rw [val_main_v50_apply, val_main_v49_apply, val_main_v48_apply, val_main_v47_apply, val_main_call1_v0_apply, val_main_call1_cst_apply]
  have eb : idx_main_v47 (idx_main_v48 (lidx_main_v80 i k)) = ix1 k := funext fun a => Fin.ext (by match a with | ⟨0, _⟩ => rfl)
  exact congrArg₂ (· * ·) (congrArg₂ max (congrArg₂ (· + ·) (congrArg (val_main_v46 (F := Idealize.ShloMosaic.Ideal) x0 x1 x2 x3) el) (congrArg x4 eb)) rfl) (congrArg x5 er)

/-! The reference computes the endpoints and the normalised weights a second time for its second layer: the same
    operations of the same arguments. -/

theorem v52_eq : val_main_v52 (F := Idealize.ShloMosaic.Ideal) x1 = val_main_v5 (F := Idealize.ShloMosaic.Ideal) x1 := rfl
theorem v54_eq : val_main_v54 (F := Idealize.ShloMosaic.Ideal) x1 = val_main_v7 (F := Idealize.ShloMosaic.Ideal) x1 := rfl
theorem v79_eq : val_main_v79 (F := Idealize.ShloMosaic.Ideal) x1 x2 = val_main_v32 (F := Idealize.ShloMosaic.Ideal) x1 x2 := rfl

end Cert.RefStages

end
-- ==== Proof.KernelRun.lean ====
/-
  The idealized kernel's run with its final memory named.  The program is host operations, a first
  matrix-product region, host operations, a second region, host operations.  Every weakly fair execution
  terminates, and at the end every buffer that outlives the regions holds the last boundary's contents:
  the fold of the host stretches and of the two regions' write-backs from the launch memory.  In
  particular the result buffer holds that fold's value, and the arguments hold what they were launched with.
-/
import proofs.«144500_j29429115912800_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments: at the end, on every core, every buffer that outlives the regions holds the
    contents the last boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The run read at the result and at the arguments: the result buffer ends at the last boundary's contents,
    each argument as launched. -/
theorem run_result : θ_run defs (onTc (τ := τ) (main (F := F))) ⟨m, fun _ => 0, ρ⟩ (fun r => ∀ c : Dev nD,
      r.2.mem ((c : Thread nD τ).loc main_v65) = W7 m ρ c (Proc.devRef .tc main_v65)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c =>
    ⟨h c _ (mem_uc main_v65 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩)
    (run_all m ρ)

end Cert.KernelIdeal.Run

end
-- ==== Proof.Region0.lean ====
/-
  The first region.  Its grid has 25 points; point t stages rows 4000 t … 4000 t + 3999 of the [100000, 256]
  operand and the whole [256, 128] operand, multiplies them (the changes of float format are the identity on the
  extended reals, and the product accumulates into zero), and writes the [4000, 128] result back as rows
  4000 t … 4000 t + 3999 of the [100000, 128] result array.  Each entry of a block is therefore the entry of the
  whole product x · w at the same row of the array, the 25 blocks tile the array, and the array after the region
  is `layer1` of the two operand arrays as the region found them.
-/
import proofs.«144500_j29429115912800_2_alg».proof.Proof.Gen.KernelIdeal.Frame
import proofs.«144500_j29429115912800_2_alg».proof.Proof.Spec
import Idealize.ShloMosaic.Lib.Pipeline.Value
import Idealize.ShloMosaic.Lib.ValueIdx
import Idealize.ShloMosaic.PureOps.Ideal.Laws

noncomputable section
namespace Cert.KernelIdeal.Blocks
open Idealize.ShloMosaic Idealize.ShloMosaic.TcCoe Idealize.SL.Sem Idealize.ShloMosaic.ValueIdx
open Idealize.ShloMosaic.Pipeline (Dat)
open Cert.KernelIdeal Cert.KernelIdeal.Gen Cert.Spec

theorem lhs0_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs0_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs0_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs0_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- The first body's stored value at an entry of the block. -/
theorem pay0_apply (x0 : Vec Ideal S4000x256 .f32) (x1 : Vec Ideal S256x128 .f32) (p : Fin 4000) (q : Fin 128) :
    k0_pay1 (F := Ideal) x0 x1 (ix2 p q) = ∑ k : Fin 256, x0 (ix2 p k) * x1 (ix2 k q) := by
  unfold k0_pay1
  rw [truncf_apply]
  simp only [matmul]
  rw [Ideal.matmul_constant_zero_apply, ← Equiv.sum_comp (ValueIdx.contrEquiv1 dot_S4000x256_S256x128_S4000x128_1_0_0_1_n_n 256 rfl rfl).symm]
  refine Finset.sum_congr rfl fun k _ => ?_
  have hk := ValueIdx.contrEquiv1_symm_val dot_S4000x256_S256x128_S4000x128_1_0_0_1_n_n 256 rfl rfl k
  have el : dot_S4000x256_S256x128_S4000x128_1_0_0_1_n_n.lhsIdx (ix2 p q) ((ValueIdx.contrEquiv1 dot_S4000x256_S256x128_S4000x128_1_0_0_1_n_n 256 rfl rfl).symm k) = ix2 p k := funext fun a => Fin.ext (by
    match a with
    | ⟨0, _⟩ => exact lhs0_0 _ _
    | ⟨1, _⟩ => exact (lhs0_1 _ _).trans hk)
  have er : dot_S4000x256_S256x128_S4000x128_1_0_0_1_n_n.rhsIdx (ix2 p q) ((ValueIdx.contrEquiv1 dot_S4000x256_S256x128_S4000x128_1_0_0_1_n_n 256 rfl rfl).symm k) = ix2 k q := funext fun a => Fin.ext (by
    match a with
    | ⟨0, _⟩ => exact (rhs0_0 _ _).trans hk
    | ⟨1, _⟩ => exact rhs0_1 _ _)
  rw [el, er, truncf_apply, truncf_apply]

variable (V : (c : Dev nD) → (b : Ref sig .tc) → Buf (Elt Ideal) ((c : Thread nD τ).loc b))

theorem hz : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block t of the first operand is rows 4000 t … 4000 t + 3999 of its array. -/
theorem iblk0_0_apply (c : Dev nD) (t : Fin cfg0.N) (p : Fin 4000) (k : Fin 256) (z : SX.Idx)
    (hz0 : (z 0).val = t.val * 4000 + p.val) (hz1 : (z 1).val = k.val) :
    (iblk0 V c 0 t : Vec Ideal S4000x256 .f32) (ix2 p k) = (V c main_arg0 : SX.Idx → EReal) z := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t 0 * 4000 + 1 * p.val = (z 0).val; rw [e0, hz0]; omega
  | ⟨1, _⟩ => show win0_0.index t 1 * 256 + 1 * k.val = (z 1).val; rw [e1, hz1]; omega

/-- Every block of the second operand is its whole array. -/
theorem iblk0_1_apply (c : Dev nD) (t : Fin cfg0.N) (k : Fin 256) (q : Fin 128) :
    (iblk0 V c 1 t : Vec Ideal S256x128 .f32) (ix2 k q) = (V c main_arg3 : SW1.Idx → EReal) (ix2 k q) := by
  obtain ⟨-, -, e2, e3, -, -⟩ := idx_facts0 t
  unfold iblk0
  rw [View.read_apply]
  show V c main_arg3 _ = V c main_arg3 _
  congr 1
  funext a
  apply Fin.ext
  match a with
  | ⟨0, _⟩ => show win0_1.index t 0 * 256 + 1 * k.val = k.val; rw [e2]; omega
  | ⟨1, _⟩ => show win0_1.index t 1 * 128 + 1 * q.val = q.val; rw [e3]; omega

theorem flushed0 (c : Dev nD) (t : Fin cfg0.N) :
    (dat0 V c).flushed 2 t = ((cfg0.win 2).blk t).view.read (Elt Ideal) (layer1 (V c main_arg0) (V c main_arg3)) := by
  show (cfg0.win 2).cut (grid0.coords t) ((dat0 V c).after 2 t) = _
  rw [after0_2]
  unfold out0_2
  rw [View.canon_unit_zero hz]
  simp only [View.ld_unit_zero (S := S4000x256) hz, View.ld_unit_zero (S := S256x128) hz]
  obtain ⟨e0, e1, e2, e3, e4, e5⟩ := idx_facts0 t
  have key : ∀ jj : S4000x128.Idx, k0_pay1 (iblk0 V c 0 t) (iblk0 V c 1 t) jj
      = View.read (Elt Ideal) ((View.whole main_v32).slice ((win0 2).rect t)) (layer1 (V c main_arg0) (V c main_arg3)) jj := by
    intro jj
    obtain ⟨p, q, rfl⟩ : ∃ (p : Fin 4000) (q : Fin 128), jj = ix2 p q := ⟨jj 0, jj 1, eq_ix2 jj⟩
    rw [pay0_apply, View.read_apply]
    unfold layer1
    refine Finset.sum_congr rfl fun k _ => ?_
    have h0 : (((View.whole main_v32).slice ((win0 2).rect t)).emb (ix2 p q) 0).val = t.val * 4000 + p.val := by
      show win0_2.index t 0 * 4000 + 1 * p.val = _
      rw [e4]; omega
    have h1 : ((View.whole main_v32).slice ((win0 2).rect t)).emb (ix2 p q) 1 = q := Fin.ext (by
      show win0_2.index t 1 * 128 + 1 * q.val = _
      rw [e5]; omega)
    rw [h1]
    refine congrArg₂ (· * ·) ?_ (iblk0_1_apply V c t k q)
    exact iblk0_0_apply V c t p k _ h0 rfl
  funext j
  exact key j

/-- An entry of the result array lies in point t's block exactly when each coordinate lies in the block's range. -/
theorem mem_blk0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v32).slice (win0_2.rect t)).set ↔ _
  rw [View.set_slice_whole, Rect.mem_set_unit]
  exact Iff.rfl

/-- Row r of the result array is written back by point r / 4000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, e4, e5⟩ := idx_facts0 t
  refine ⟨t, flush0_2 t, ?_⟩
  rw [mem_blk0]
  intro a
  match a with
  | ⟨0, _⟩ => show win0_2.index t 0 * 4000 ≤ (i 0).val ∧ (i 0).val < win0_2.index t 0 * 4000 + 4000; rw [e4, ht]; omega
  | ⟨1, _⟩ => show win0_2.index t 1 * 128 ≤ (i 1).val ∧ (i 1).val < win0_2.index t 1 * 128 + 128; rw [e5]; omega

/-- The first region's result array after the run is the product of its two operand arrays as the region found them. -/
theorem array0 (c : Dev nD) : (dat0 V c).arrAt 2 cfg0.N = layer1 (V c main_arg0) (V c main_arg3) :=
  (dat0 V c).arrAt_eq_of_cover 2 (layer1 (V c main_arg0) (V c main_arg3)) (fun t _ => flushed0 V c t) cover0

end Cert.KernelIdeal.Blocks
end
-- ==== Proof.Region1.lean ====
/-
  The second region.  Its grid has 25 points; point t stages rows 4000 t … 4000 t + 3999 of the [100000, 128]
  operand, the whole [1, 128] bias row and the whole [128, 64] operand; the body adds the bias row to every row of
  the block, takes the maximum with zero, multiplies by the [128, 64] operand (the changes of float format are the
  identity on the extended reals, and the product accumulates into zero), and the [4000, 64] result goes back as
  rows 4000 t … 4000 t + 3999 of the [100000, 64] result array.  Each entry of a block is the entry of
  relu (a + b) · w at the same row of the array, the 25 blocks tile the array, and the array after the region is
  `layer2` of the three operand arrays as the region found them.
-/
import proofs.«144500_j29429115912800_2_alg».proof.Proof.Gen.KernelIdeal.Frame
import proofs.«144500_j29429115912800_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Blocks1
open Idealize.ShloMosaic Idealize.ShloMosaic.TcCoe Idealize.SL.Sem Idealize.ShloMosaic.ValueIdx
open Idealize.ShloMosaic.Pipeline (Dat)
open Cert.KernelIdeal Cert.KernelIdeal.Gen Cert.Spec

theorem lhs1_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs1_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhs1_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhs1_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The second body's stored value at an entry of the block: the sum over k of
    max (a (p, k) + b (0, k)) z · w (k, q). -/
theorem pay1_apply (b : Vec Ideal S1x128 .f32) (a : Vec Ideal S4000x128 .f32) (w : Vec Ideal S128x64 .f32) (p : Fin 4000) (q : Fin 64) :
    k1_pay1 (F := Ideal) b a w (ix2 p q)
      = ∑ k : Fin 128, max (a (ix2 p k) + b (ix2 (0 : Fin 1) k)) (Ideal.ofBits .f32 0x00000000#32) * w (ix2 k q) := by
  unfold k1_pay1
  rw [truncf_apply]
  simp only [matmul]
  rw [Ideal.matmul_constant_zero_apply, ← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx (ix2 p q) ((ValueIdx.contrEquiv1 dot_S4000x128_S128x64_S4000x64_1_0_0_1_n_n 128 rfl rfl).symm k) = ix2 p k := funext fun a => Fin.ext (by
    match a with
    | ⟨0, _⟩ => exact lhs1_0 _ _
    | ⟨1, _⟩ => exact (lhs1_1 _ _).trans hk)
  have er : dot_S4000x128_S128x64_S4000x64_1_0_0_1_n_n.rhsIdx (ix2 p q) ((ValueIdx.contrEquiv1 dot_S4000x128_S128x64_S4000x64_1_0_0_1_n_n 128 rfl rfl).symm k) = ix2 k q := funext fun a => Fin.ext (by
    match a with
    | ⟨0, _⟩ => exact (rhs1_0 _ _).trans hk
    | ⟨1, _⟩ => exact rhs1_1 _ _)
  rw [el, er, truncf_apply, truncf_apply, maximumf_apply, addf_apply, shapeCast_self, shapeCast_self, shapeCast_self,
    broadcastTo_1b_ab_apply, broadcast_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the grid: the first operand and the result move with the point along the
    rows, the bias row and the second operand stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block t of the first operand is rows 4000 t … 4000 t + 3999 of its array. -/
theorem iblk1_0_apply (c : Dev nD) (t : Fin cfg1.N) (p : Fin 4000) (k : Fin 128) (z : SH.Idx)
    (hz0 : (z 0).val = t.val * 4000 + p.val) (hz1 : (z 1).val = k.val) :
    (iblk1 V c 0 t : Vec Ideal S4000x128 .f32) (ix2 p k) = (V c main_v46 : SH.Idx → EReal) z := by
  obtain ⟨e0, e1, -, -, -, -, -, -⟩ := idx_facts1 t
  unfold iblk1
  rw [View.read_apply]
  show V c main_v46 _ = V c main_v46 _
  congr 1
  funext a
  apply Fin.ext
  match a with
  | ⟨0, _⟩ => show win1_0.index t 0 * 4000 + 1 * p.val = (z 0).val; rw [e0, hz0]; omega
  | ⟨1, _⟩ => show win1_0.index t 1 * 128 + 1 * k.val = (z 1).val; rw [e1, hz1]; omega

/-- Every block of the bias row is the whole row. -/
theorem iblk1_1_apply (c : Dev nD) (t : Fin cfg1.N) (k : Fin 128) :
    (iblk1 V c 1 t : Vec Ideal S1x128 .f32) (ix2 (0 : Fin 1) k) = (V c main_v47 : SB.Idx → EReal) (ix2 (0 : Fin 1) k) := by
  obtain ⟨-, -, e2, e3, -, -, -, -⟩ := idx_facts1 t
  unfold iblk1
  rw [View.read_apply]
  show V c main_v47 _ = V c main_v47 _
  congr 1
  funext a
  apply Fin.ext
  match a with
  | ⟨0, _⟩ => show win1_1.index t 0 * 1 + 1 * 0 = 0; rw [e2]
  | ⟨1, _⟩ => show win1_1.index t 1 * 128 + 1 * k.val = k.val; rw [e3]; omega

/-- Every block of the second operand is its whole array. -/
theorem iblk1_2_apply (c : Dev nD) (t : Fin cfg1.N) (k : Fin 128) (q : Fin 64) :
    (iblk1 V c 2 t : Vec Ideal S128x64 .f32) (ix2 k q) = (V c main_arg5 : SW2.Idx → EReal) (ix2 k q) := by
  obtain ⟨-, -, -, -, e4, e5, -, -⟩ := idx_facts1 t
  unfold iblk1
  rw [View.read_apply]
  show V c main_arg5 _ = V c main_arg5 _
  congr 1
  funext a
  apply Fin.ext
  match a with
  | ⟨0, _⟩ => show win1_2.index t 0 * 128 + 1 * k.val = k.val; rw [e4]; omega
  | ⟨1, _⟩ => show win1_2.index t 1 * 64 + 1 * q.val = q.val; rw [e5]; omega

/-- What point t writes back is block t of `layer2` of the operand arrays as the region finds them. -/
theorem flushed1 (c : Dev nD) (t : Fin cfg1.N) :
    (dat1 V c).flushed 3 t = ((cfg1.win 3).blk t).view.read (Elt Ideal) (layer2 (V c main_v46) (V c main_v47) (V c main_arg5)) := by
  show (cfg1.win 3).cut (grid1.coords t) ((dat1 V c).after 3 t) = _
  rw [after1_3]
  unfold out1_3
  rw [View.canon_unit_zero hz]
  simp only [View.ld_unit_zero (S := S4000x128) hz, View.ld_unit_zero (S := S1x128) hz, View.ld_unit_zero (S := S128x64) hz]
  obtain ⟨e0, e1, e2, e3, e4, e5, e6, e7⟩ := idx_facts1 t
  have key : ∀ jj : S4000x64.Idx, k1_pay1 (iblk1 V c 1 t) (iblk1 V c 0 t) (iblk1 V c 2 t) jj
      = View.read (Elt Ideal) ((View.whole main_v48).slice ((win1 3).rect t)) (layer2 (V c main_v46) (V c main_v47) (V c main_arg5)) jj := by
    intro jj
    obtain ⟨p, q, rfl⟩ : ∃ (p : Fin 4000) (q : Fin 64), jj = ix2 p q := ⟨jj 0, jj 1, eq_ix2 jj⟩
    rw [pay1_apply, View.read_apply]
    unfold layer2
    refine Finset.sum_congr rfl fun k _ => ?_
    have h0 : (((View.whole main_v48).slice ((win1 3).rect t)).emb (ix2 p q) 0).val = t.val * 4000 + p.val := by
      show win1_3.index t 0 * 4000 + 1 * p.val = _
      rw [e6]; omega
    have h1 : ((View.whole main_v48).slice ((win1 3).rect t)).emb (ix2 p q) 1 = q := Fin.ext (by
      show win1_3.index t 1 * 64 + 1 * q.val = _
      rw [e7]; omega)
    rw [h1, iblk1_1_apply V c t k, iblk1_2_apply V c t k q]
    refine congrArg (fun x => max (x + _) _ * _) ?_
    exact iblk1_0_apply V c t p k _ h0 rfl
  funext j
  exact key j

/-- An entry of the result array lies in point t's block exactly when each coordinate lies in the block's range. -/
theorem mem_blk1 (t : Fin cfg1.N) (i : S100000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v48).slice (win1_3.rect t)).set ↔ _
  rw [View.set_slice_whole, Rect.mem_set_unit]
  exact Iff.rfl

/-- Row r of the result array is written back by point r / 4000. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, e6, e7⟩ := idx_facts1 t
  refine ⟨t, flush1_3 t, ?_⟩
  rw [mem_blk1]
  intro a
  match a with
  | ⟨0, _⟩ => show win1_3.index t 0 * 4000 ≤ (i 0).val ∧ (i 0).val < win1_3.index t 0 * 4000 + 4000; rw [e6, ht]; omega
  | ⟨1, _⟩ => show win1_3.index t 1 * 64 ≤ (i 1).val ∧ (i 1).val < win1_3.index t 1 * 64 + 64; rw [e7]; omega

/-- The second region's result array after the run is `layer2` of its three operand arrays as the region found them. -/
theorem array1 (c : Dev nD) : (dat1 V c).arrAt 3 cfg1.N = layer2 (V c main_v46) (V c main_v47) (V c main_arg5) :=
  (dat1 V c).arrAt_eq_of_cover 3 (layer2 (V c main_v46) (V c main_v47) (V c main_arg5)) (fun t _ => flushed1 V c t) cover1

end Cert.KernelIdeal.Blocks1
end
-- ==== Proof.HostStages.lean ====
/-
  The idealized kernel's buffers at each boundary of its run, read back to the arguments.

  Before the first region the host computes the edge endpoints with the self-loops appended, the weights with
  the self-loops' ones appended, and the normalised edge weights.  The first region multiplies x by w₁.  The host
  then aggregates that product along the edges and reshapes the first bias to a row.  The second region computes
  relu (aggregate + bias) · w₂.  The host aggregates again and adds the last bias.  Each of these is stated in
  the vocabulary of the reference's stages, so that the two programs' results are one term.
-/
import proofs.«144500_j29429115912800_2_alg».proof.Proof.Gen.KernelIdeal.Frame
import proofs.«144500_j29429115912800_2_alg».proof.Proof.Region0
import proofs.«144500_j29429115912800_2_alg».proof.Proof.Region1
import proofs.«144500_j29429115912800_2_alg».proof.Proof.RefStages
import Idealize.ShloMosaic.Lib.StableHlo.Run
import Idealize.ShloMosaic.Lib.ValueLayout

set_option maxRecDepth 16384

noncomputable section

namespace Cert.KernelIdeal.Stages

open Idealize.ShloMosaic Idealize.ShloMosaic.TcCoe Idealize.SL.Sem Idealize.ShloMosaic.ValueIdx Idealize.ShloMosaic.StableHlo
open Cert.KernelIdeal Cert.KernelIdeal.Gen Cert.Spec Cert.RefStages

/-- An edge list's contents. -/
abbrev XI : Type := Cert.RefStages.EdgeIdx
/-- The edge weights' contents. -/
abbrev XW : Type := Cert.RefStages.EdgeW

/-! ## The host stretches, each from ANY contents of the buffers it reads -/

/-- The call that selects: the first operand where the mask is set, the broadcast scalar elsewhere. -/
theorem where_raw (V : Valuation τ sig (Elt Idealize.ShloMosaic.Ideal)) :
    after hostOps0_1 V (Proc.devRef .tc main_v15)
      = select (V (Proc.devRef .tc main_v13)) (V (Proc.devRef .tc main_v14)) (broadcastInDim S100000 ![] bcast_S_S100000 (V (Proc.devRef .tc main_cst_2))) := by
  after_results_simp
  rfl

/-- The select of the inverse square roots where the degree is positive. -/
theorem where_of (V : Valuation τ sig (Elt Idealize.ShloMosaic.Ideal)) (x1 : XI) (x2 : XW)
    (h13 : V (Proc.devRef .tc main_v13) = Cert.ReferenceIdeal.Read.val_main_v14 (F := Idealize.ShloMosaic.Ideal) x1 x2)
    (h14 : V (Proc.devRef .tc main_v14) = Cert.ReferenceIdeal.Read.val_main_v15 (F := Idealize.ShloMosaic.Ideal) x1 x2)
    (hc : V (Proc.devRef .tc main_cst_2) = Cert.ReferenceIdeal.Read.val_main_cst_2 (F := Idealize.ShloMosaic.Ideal)) :
    after hostOps0_1 V (Proc.devRef .tc main_v15) = Cert.ReferenceIdeal.Read.val_main_v16 (F := Idealize.ShloMosaic.Ideal) x1 x2 := by
  rw [where_raw, h13, h14, hc]
  rfl

/-- The normalised edge weights: the two endpoints' factors gathered and multiplied with the weight. -/
theorem norm_of (V : Valuation τ sig (Elt Idealize.ShloMosaic.Ideal)) (x1 : XI) (x2 : XW)
    (h5 : V (Proc.devRef .tc main_v5) = Cert.ReferenceIdeal.Read.val_main_v5 (F := Idealize.ShloMosaic.Ideal) x1)
    (h6 : V (Proc.devRef .tc main_v6) = Cert.ReferenceIdeal.Read.val_main_v7 (F := Idealize.ShloMosaic.Ideal) x1)
    (h8 : V (Proc.devRef .tc main_v8) = Cert.ReferenceIdeal.Read.val_main_v9 (F := Idealize.ShloMosaic.Ideal) x2)
    (h15 : V (Proc.devRef .tc main_v15) = Cert.ReferenceIdeal.Read.val_main_v16 (F := Idealize.ShloMosaic.Ideal) x1 x2) :
    after hostOps0_2 V (Proc.devRef .tc main_v31) = Cert.ReferenceIdeal.Read.val_main_v32 (F := Idealize.ShloMosaic.Ideal) x1 x2 := by
  after_results_simp
  rw [h5, h6, h8, h15]
  rfl

theorem where_keeps_arg0 (V : Valuation τ sig (Elt Idealize.ShloMosaic.Ideal)) : after hostOps0_1 V (Proc.devRef .tc main_arg0) = V (Proc.devRef .tc main_arg0) := by
  after_results_simp

theorem where_keeps_arg3 (V : Valuation τ sig (Elt Idealize.ShloMosaic.Ideal)) : after hostOps0_1 V (Proc.devRef .tc main_arg3) = V (Proc.devRef .tc main_arg3) := by
  after_results_simp

theorem where_keeps_arg4 (V : Valuation τ sig (Elt Idealize.ShloMosaic.Ideal)) : after hostOps0_1 V (Proc.devRef .tc main_arg4) = V (Proc.devRef .tc main_arg4) := by
  after_results_simp

theorem where_keeps_arg5 (V : Valuation τ sig (Elt Idealize.ShloMosaic.Ideal)) : after hostOps0_1 V (Proc.devRef .tc main_arg5) = V (Proc.devRef .tc main_arg5) := by
  after_results_simp

theorem where_keeps_arg6 (V : Valuation τ sig (Elt Idealize.ShloMosaic.Ideal)) : after hostOps0_1 V (Proc.devRef .tc main_arg6) = V (Proc.devRef .tc main_arg6) := by
  after_results_simp

theorem where_keeps_v5 (V : Valuation τ sig (Elt Idealize.ShloMosaic.Ideal)) : after hostOps0_1 V (Proc.devRef .tc main_v5) = V (Proc.devRef .tc main_v5) := by
  after_results_simp

theorem where_keeps_v6 (V : Valuation τ sig (Elt Idealize.ShloMosaic.Ideal)) : after hostOps0_1 V (Proc.devRef .tc main_v6) = V (Proc.devRef .tc main_v6) := by
  after_results_simp

theorem where_keeps_v8 (V : Valuation τ sig (Elt Idealize.ShloMosaic.Ideal)) : after hostOps0_1 V (Proc.devRef .tc main_v8) = V (Proc.devRef .tc main_v8) := by
  after_results_simp

theorem norm_keeps_arg0 (V : Valuation τ sig (Elt Idealize.ShloMosaic.Ideal)) : after hostOps0_2 V (Proc.devRef .tc main_arg0) = V (Proc.devRef .tc main_arg0) := by
  after_results_simp

theorem norm_keeps_arg3 (V : Valuation τ sig (Elt Idealize.ShloMosaic.Ideal)) : after hostOps0_2 V (Proc.devRef .tc main_arg3) = V (Proc.devRef .tc main_arg3) := by
  after_results_simp

theorem norm_keeps_arg4 (V : Valuation τ sig (Elt Idealize.ShloMosaic.Ideal)) : after hostOps0_2 V (Proc.devRef .tc main_arg4) = V (Proc.devRef .tc main_arg4) := by
  after_results_simp

theorem norm_keeps_arg5 (V : Valuation τ sig (Elt Idealize.ShloMosaic.Ideal)) : after hostOps0_2 V (Proc.devRef .tc main_arg5) = V (Proc.devRef .tc main_arg5) := by
  after_results_simp

theorem norm_keeps_arg6 (V : Valuation τ sig (Elt Idealize.ShloMosaic.Ideal)) : after hostOps0_2 V (Proc.devRef .tc main_arg6) = V (Proc.devRef .tc main_arg6) := by
  after_results_simp

theorem norm_keeps_v5 (V : Valuation τ sig (Elt Idealize.ShloMosaic.Ideal)) : after hostOps0_2 V (Proc.devRef .tc main_v5) = V (Proc.devRef .tc main_v5) := by
  after_results_simp

theorem norm_keeps_v6 (V : Valuation τ sig (Elt Idealize.ShloMosaic.Ideal)) : after hostOps0_2 V (Proc.devRef .tc main_v6) = V (Proc.devRef .tc main_v6) := by
  after_results_simp

/-- The first aggregation, of whatever the first region left. -/
theorem aggregate1_of (V : Valuation τ sig (Elt Idealize.ShloMosaic.Ideal)) (x1 : XI) (x2 : XW) (H : SH.Idx → EReal)
    (h5 : V (Proc.devRef .tc main_v5) = Cert.ReferenceIdeal.Read.val_main_v5 (F := Idealize.ShloMosaic.Ideal) x1)
    (h6 : V (Proc.devRef .tc main_v6) = Cert.ReferenceIdeal.Read.val_main_v7 (F := Idealize.ShloMosaic.Ideal) x1)
    (h31 : V (Proc.devRef .tc main_v31) = Cert.ReferenceIdeal.Read.val_main_v32 (F := Idealize.ShloMosaic.Ideal) x1 x2)
    (h32 : V (Proc.devRef .tc main_v32) = H) :
    after hostOps1 V (Proc.devRef .tc main_v46) = aggregate1 H x1 x2 := by
  after_results_simp
  rw [h5, h6, h31, h32]
  rfl

/-- The first bias reshaped to a row. -/
theorem biasRow_of (V : Valuation τ sig (Elt Idealize.ShloMosaic.Ideal)) (x4 : (⟨Cert.ReferenceIdeal.S128, .f32⟩ : BufTy).Contents (Elt Idealize.ShloMosaic.Ideal))
    (h4 : V (Proc.devRef .tc main_arg4) = x4) :
    after hostOps1 V (Proc.devRef .tc main_v47) = biasRow x4 := by
  after_results_simp
  rw [h4]
  have key : ∀ jj : S1x128.Idx, shapeCast S1x128 x4 shapeCasts_S128_S1x128 jj = biasRow x4 jj := by
    intro jj
    obtain ⟨u, k, rfl⟩ : ∃ (u : Fin 1) (k : Fin 128), jj = ix2 u k := ⟨jj 0, jj 1, eq_ix2 jj⟩
    exact shapeCast_a_1a_apply x4 shapeCasts_S128_S1x128 u k
  funext j
  exact key j

theorem agg1_keeps_arg5 (V : Valuation τ sig (Elt Idealize.ShloMosaic.Ideal)) : after hostOps1 V (Proc.devRef .tc main_arg5) = V (Proc.devRef .tc main_arg5) := by
  after_results_simp

theorem agg1_keeps_arg6 (V : Valuation τ sig (Elt Idealize.ShloMosaic.Ideal)) : after hostOps1 V (Proc.devRef .tc main_arg6) = V (Proc.devRef .tc main_arg6) := by
  after_results_simp

theorem agg1_keeps_v5 (V : Valuation τ sig (Elt Idealize.ShloMosaic.Ideal)) : after hostOps1 V (Proc.devRef .tc main_v5) = V (Proc.devRef .tc main_v5) := by
  after_results_simp

theorem agg1_keeps_v6 (V : Valuation τ sig (Elt Idealize.ShloMosaic.Ideal)) : after hostOps1 V (Proc.devRef .tc main_v6) = V (Proc.devRef .tc main_v6) := by
  after_results_simp

theorem agg1_keeps_v31 (V : Valuation τ sig (Elt Idealize.ShloMosaic.Ideal)) : after hostOps1 V (Proc.devRef .tc main_v31) = V (Proc.devRef .tc main_v31) := by
  after_results_simp

/-- The second aggregation, of whatever the second region left, and the last bias. -/
theorem aggregate2_of (V : Valuation τ sig (Elt Idealize.ShloMosaic.Ideal)) (x1 : XI) (x2 : XW) (x6 : (⟨Cert.ReferenceIdeal.S64, .f32⟩ : BufTy).Contents (Elt Idealize.ShloMosaic.Ideal)) (H : SO.Idx → EReal)
    (h5 : V (Proc.devRef .tc main_v5) = Cert.ReferenceIdeal.Read.val_main_v52 (F := Idealize.ShloMosaic.Ideal) x1)
    (h6 : V (Proc.devRef .tc main_v6) = Cert.ReferenceIdeal.Read.val_main_v54 (F := Idealize.ShloMosaic.Ideal) x1)
    (h31 : V (Proc.devRef .tc main_v31) = Cert.ReferenceIdeal.Read.val_main_v79 (F := Idealize.ShloMosaic.Ideal) x1 x2)
    (h48 : V (Proc.devRef .tc main_v48) = H)
    (ha6 : V (Proc.devRef .tc main_arg6) = x6) :
    after hostOps2 V (Proc.devRef .tc main_v65) = aggregate2 H x1 x2 x6 := by
  after_results_simp
  rw [h5, h6, h31, h48, ha6]
  rfl

variable (m : (ℓ : Loc nD τ sig) → Buf (Elt Idealize.ShloMosaic.Ideal) ℓ) (ρ : Dev nD → PrngReg) (c : Dev nD)

/-! ## Before the first region: the endpoints, the weights and the normalised weights -/

theorem W1_arg0 : W1 m ρ c (Proc.devRef .tc main_arg0) = m ((c : Thread nD τ).loc main_arg0) := by
  show after hostOps0 (W0 m ρ c) (Proc.devRef .tc main_arg0) = _
  after_results_simp <;> rfl

theorem W1_arg3 : W1 m ρ c (Proc.devRef .tc main_arg3) = m ((c : Thread nD τ).loc main_arg3) := by
  show after hostOps0 (W0 m ρ c) (Proc.devRef .tc main_arg3) = _
  after_results_simp <;> rfl

theorem W1_arg4 : W1 m ρ c (Proc.devRef .tc main_arg4) = m ((c : Thread nD τ).loc main_arg4) := by
  show after hostOps0 (W0 m ρ c) (Proc.devRef .tc main_arg4) = _
  after_results_simp <;> rfl

theorem W1_arg5 : W1 m ρ c (Proc.devRef .tc main_arg5) = m ((c : Thread nD τ).loc main_arg5) := by
  show after hostOps0 (W0 m ρ c) (Proc.devRef .tc main_arg5) = _
  after_results_simp <;> rfl

theorem W1_arg6 : W1 m ρ c (Proc.devRef .tc main_arg6) = m ((c : Thread nD τ).loc main_arg6) := by
  show after hostOps0 (W0 m ρ c) (Proc.devRef .tc main_arg6) = _
  after_results_simp <;> rfl

theorem W1_v5 : W1 m ρ c (Proc.devRef .tc main_v5) = Cert.ReferenceIdeal.Read.val_main_v5 (F := Idealize.ShloMosaic.Ideal) (m ((c : Thread nD τ).loc main_arg1)) := by
  show after hostOps0 (W0 m ρ c) (Proc.devRef .tc main_v5) = _
  after_results_simp <;> rfl

theorem W1_v6 : W1 m ρ c (Proc.devRef .tc main_v6) = Cert.ReferenceIdeal.Read.val_main_v7 (F := Idealize.ShloMosaic.Ideal) (m ((c : Thread nD τ).loc main_arg1)) := by
  show after hostOps0 (W0 m ρ c) (Proc.devRef .tc main_v6) = _
  after_results_simp <;> rfl

theorem W1_v8 : W1 m ρ c (Proc.devRef .tc main_v8) = Cert.ReferenceIdeal.Read.val_main_v9 (F := Idealize.ShloMosaic.Ideal) (m ((c : Thread nD τ).loc main_arg2)) := by
  show after hostOps0 (W0 m ρ c) (Proc.devRef .tc main_v8) = _
  after_results_simp <;> rfl

theorem W1_v13 : W1 m ρ c (Proc.devRef .tc main_v13) = Cert.ReferenceIdeal.Read.val_main_v14 (F := Idealize.ShloMosaic.Ideal) (m ((c : Thread nD τ).loc main_arg1)) (m ((c : Thread nD τ).loc main_arg2)) := by
  show after hostOps0 (W0 m ρ c) (Proc.devRef .tc main_v13) = _
  after_results_simp <;> rfl

theorem W1_v14 : W1 m ρ c (Proc.devRef .tc main_v14) = Cert.ReferenceIdeal.Read.val_main_v15 (F := Idealize.ShloMosaic.Ideal) (m ((c : Thread nD τ).loc main_arg1)) (m ((c : Thread nD τ).loc main_arg2)) := by
  show after hostOps0 (W0 m ρ c) (Proc.devRef .tc main_v14) = _
  after_results_simp <;> rfl

theorem W1_cst_2 : W1 m ρ c (Proc.devRef .tc main_cst_2) = Cert.ReferenceIdeal.Read.val_main_cst_2 (F := Idealize.ShloMosaic.Ideal) := by
  show after hostOps0 (W0 m ρ c) (Proc.devRef .tc main_cst_2) = _
  after_results_simp <;> rfl

theorem W2_arg0 : W2 m ρ c (Proc.devRef .tc main_arg0) = m ((c : Thread nD τ).loc main_arg0) := (where_keeps_arg0 (W1 m ρ c)).trans (W1_arg0 m ρ c)
theorem W2_arg3 : W2 m ρ c (Proc.devRef .tc main_arg3) = m ((c : Thread nD τ).loc main_arg3) := (where_keeps_arg3 (W1 m ρ c)).trans (W1_arg3 m ρ c)
theorem W2_arg4 : W2 m ρ c (Proc.devRef .tc main_arg4) = m ((c : Thread nD τ).loc main_arg4) := (where_keeps_arg4 (W1 m ρ c)).trans (W1_arg4 m ρ c)
theorem W2_arg5 : W2 m ρ c (Proc.devRef .tc main_arg5) = m ((c : Thread nD τ).loc main_arg5) := (where_keeps_arg5 (W1 m ρ c)).trans (W1_arg5 m ρ c)
theorem W2_arg6 : W2 m ρ c (Proc.devRef .tc main_arg6) = m ((c : Thread nD τ).loc main_arg6) := (where_keeps_arg6 (W1 m ρ c)).trans (W1_arg6 m ρ c)
theorem W2_v5 : W2 m ρ c (Proc.devRef .tc main_v5) = Cert.ReferenceIdeal.Read.val_main_v5 (F := Idealize.ShloMosaic.Ideal) (m ((c : Thread nD τ).loc main_arg1)) := (where_keeps_v5 (W1 m ρ c)).trans (W1_v5 m ρ c)
theorem W2_v6 : W2 m ρ c (Proc.devRef .tc main_v6) = Cert.ReferenceIdeal.Read.val_main_v7 (F := Idealize.ShloMosaic.Ideal) (m ((c : Thread nD τ).loc main_arg1)) := (where_keeps_v6 (W1 m ρ c)).trans (W1_v6 m ρ c)
theorem W2_v8 : W2 m ρ c (Proc.devRef .tc main_v8) = Cert.ReferenceIdeal.Read.val_main_v9 (F := Idealize.ShloMosaic.Ideal) (m ((c : Thread nD τ).loc main_arg2)) := (where_keeps_v8 (W1 m ρ c)).trans (W1_v8 m ρ c)
theorem W2_v15 : W2 m ρ c (Proc.devRef .tc main_v15) = Cert.ReferenceIdeal.Read.val_main_v16 (F := Idealize.ShloMosaic.Ideal) (m ((c : Thread nD τ).loc main_arg1)) (m ((c : Thread nD τ).loc main_arg2)) :=
  where_of (W1 m ρ c) _ _ (W1_v13 m ρ c) (W1_v14 m ρ c) (W1_cst_2 m ρ c)

theorem W3_arg0 : W3 m ρ c (Proc.devRef .tc main_arg0) = m ((c : Thread nD τ).loc main_arg0) := (norm_keeps_arg0 (W2 m ρ c)).trans (W2_arg0 m ρ c)
theorem W3_arg3 : W3 m ρ c (Proc.devRef .tc main_arg3) = m ((c : Thread nD τ).loc main_arg3) := (norm_keeps_arg3 (W2 m ρ c)).trans (W2_arg3 m ρ c)
theorem W3_arg4 : W3 m ρ c (Proc.devRef .tc main_arg4) = m ((c : Thread nD τ).loc main_arg4) := (norm_keeps_arg4 (W2 m ρ c)).trans (W2_arg4 m ρ c)
theorem W3_arg5 : W3 m ρ c (Proc.devRef .tc main_arg5) = m ((c : Thread nD τ).loc main_arg5) := (norm_keeps_arg5 (W2 m ρ c)).trans (W2_arg5 m ρ c)
theorem W3_arg6 : W3 m ρ c (Proc.devRef .tc main_arg6) = m ((c : Thread nD τ).loc main_arg6) := (norm_keeps_arg6 (W2 m ρ c)).trans (W2_arg6 m ρ c)
theorem W3_v5 : W3 m ρ c (Proc.devRef .tc main_v5) = Cert.ReferenceIdeal.Read.val_main_v5 (F := Idealize.ShloMosaic.Ideal) (m ((c : Thread nD τ).loc main_arg1)) := (norm_keeps_v5 (W2 m ρ c)).trans (W2_v5 m ρ c)
theorem W3_v6 : W3 m ρ c (Proc.devRef .tc main_v6) = Cert.ReferenceIdeal.Read.val_main_v7 (F := Idealize.ShloMosaic.Ideal) (m ((c : Thread nD τ).loc main_arg1)) := (norm_keeps_v6 (W2 m ρ c)).trans (W2_v6 m ρ c)
/-- The normalised edge weights before the first region. -/
theorem W3_v31 : W3 m ρ c (Proc.devRef .tc main_v31) = Cert.ReferenceIdeal.Read.val_main_v32 (F := Idealize.ShloMosaic.Ideal) (m ((c : Thread nD τ).loc main_arg1)) (m ((c : Thread nD τ).loc main_arg2)) :=
  norm_of (W2 m ρ c) _ _ (W2_v5 m ρ c) (W2_v6 m ρ c) (W2_v8 m ρ c) (W2_v15 m ρ c)

/-! ## The first region: x · w₁ -/

theorem W4_v5 : W4 m ρ c (Proc.devRef .tc main_v5) = Cert.ReferenceIdeal.Read.val_main_v5 (F := Idealize.ShloMosaic.Ideal) (m ((c : Thread nD τ).loc main_arg1)) :=
  (W4_of_ne m ρ c main_v5 (by decide)).trans (W3_v5 m ρ c)

theorem W4_v6 : W4 m ρ c (Proc.devRef .tc main_v6) = Cert.ReferenceIdeal.Read.val_main_v7 (F := Idealize.ShloMosaic.Ideal) (m ((c : Thread nD τ).loc main_arg1)) :=
  (W4_of_ne m ρ c main_v6 (by decide)).trans (W3_v6 m ρ c)

theorem W4_v31 : W4 m ρ c (Proc.devRef .tc main_v31) = Cert.ReferenceIdeal.Read.val_main_v32 (F := Idealize.ShloMosaic.Ideal) (m ((c : Thread nD τ).loc main_arg1)) (m ((c : Thread nD τ).loc main_arg2)) :=
  (W4_of_ne m ρ c main_v31 (by decide)).trans (W3_v31 m ρ c)

theorem W4_arg4 : W4 m ρ c (Proc.devRef .tc main_arg4) = m ((c : Thread nD τ).loc main_arg4) :=
  (W4_of_ne m ρ c main_arg4 (by decide)).trans (W3_arg4 m ρ c)

theorem W4_arg5 : W4 m ρ c (Proc.devRef .tc main_arg5) = m ((c : Thread nD τ).loc main_arg5) :=
  (W4_of_ne m ρ c main_arg5 (by decide)).trans (W3_arg5 m ρ c)

theorem W4_arg6 : W4 m ρ c (Proc.devRef .tc main_arg6) = m ((c : Thread nD τ).loc main_arg6) :=
  (W4_of_ne m ρ c main_arg6 (by decide)).trans (W3_arg6 m ρ c)

/-- The first region leaves the product of x and w₁. -/
theorem W4_v32 : W4 m ρ c (Proc.devRef .tc main_v32) = (layer1 (m ((c : Thread nD τ).loc main_arg0)) (m ((c : Thread nD τ).loc main_arg3))) := by
  refine (W4_arr m ρ c 2).trans ((Cert.KernelIdeal.Blocks.array0 (V3 m ρ) c).trans ?_)
  show layer1 (W3 m ρ c (Proc.devRef .tc main_arg0)) (W3 m ρ c (Proc.devRef .tc main_arg3)) = _
  rw [W3_arg0, W3_arg3]

/-! ## Between the regions: the first aggregation and the bias row -/

theorem W5_arg5 : W5 m ρ c (Proc.devRef .tc main_arg5) = m ((c : Thread nD τ).loc main_arg5) := (agg1_keeps_arg5 (W4 m ρ c)).trans (W4_arg5 m ρ c)
theorem W5_arg6 : W5 m ρ c (Proc.devRef .tc main_arg6) = m ((c : Thread nD τ).loc main_arg6) := (agg1_keeps_arg6 (W4 m ρ c)).trans (W4_arg6 m ρ c)
theorem W5_v5 : W5 m ρ c (Proc.devRef .tc main_v5) = Cert.ReferenceIdeal.Read.val_main_v5 (F := Idealize.ShloMosaic.Ideal) (m ((c : Thread nD τ).loc main_arg1)) := (agg1_keeps_v5 (W4 m ρ c)).trans (W4_v5 m ρ c)
theorem W5_v6 : W5 m ρ c (Proc.devRef .tc main_v6) = Cert.ReferenceIdeal.Read.val_main_v7 (F := Idealize.ShloMosaic.Ideal) (m ((c : Thread nD τ).loc main_arg1)) := (agg1_keeps_v6 (W4 m ρ c)).trans (W4_v6 m ρ c)
theorem W5_v31 : W5 m ρ c (Proc.devRef .tc main_v31) = Cert.ReferenceIdeal.Read.val_main_v32 (F := Idealize.ShloMosaic.Ideal) (m ((c : Thread nD τ).loc main_arg1)) (m ((c : Thread nD τ).loc main_arg2)) := (agg1_keeps_v31 (W4 m ρ c)).trans (W4_v31 m ρ c)
theorem W5_v46 : W5 m ρ c (Proc.devRef .tc main_v46) = (aggregate1 (layer1 (m ((c : Thread nD τ).loc main_arg0)) (m ((c : Thread nD τ).loc main_arg3))) (m ((c : Thread nD τ).loc main_arg1)) (m ((c : Thread nD τ).loc main_arg2))) :=
  aggregate1_of (W4 m ρ c) _ _ _ (W4_v5 m ρ c) (W4_v6 m ρ c) (W4_v31 m ρ c) (W4_v32 m ρ c)
theorem W5_v47 : W5 m ρ c (Proc.devRef .tc main_v47) = biasRow (m ((c : Thread nD τ).loc main_arg4)) :=
  biasRow_of (W4 m ρ c) _ (W4_arg4 m ρ c)

/-! ## The second region: relu (aggregate + bias) · w₂ -/

theorem W6_v5 : W6 m ρ c (Proc.devRef .tc main_v5) = Cert.ReferenceIdeal.Read.val_main_v5 (F := Idealize.ShloMosaic.Ideal) (m ((c : Thread nD τ).loc main_arg1)) :=
  (W6_of_ne m ρ c main_v5 (by decide)).trans (W5_v5 m ρ c)

theorem W6_v6 : W6 m ρ c (Proc.devRef .tc main_v6) = Cert.ReferenceIdeal.Read.val_main_v7 (F := Idealize.ShloMosaic.Ideal) (m ((c : Thread nD τ).loc main_arg1)) :=
  (W6_of_ne m ρ c main_v6 (by decide)).trans (W5_v6 m ρ c)

theorem W6_v31 : W6 m ρ c (Proc.devRef .tc main_v31) = Cert.ReferenceIdeal.Read.val_main_v32 (F := Idealize.ShloMosaic.Ideal) (m ((c : Thread nD τ).loc main_arg1)) (m ((c : Thread nD τ).loc main_arg2)) :=
  (W6_of_ne m ρ c main_v31 (by decide)).trans (W5_v31 m ρ c)

theorem W6_arg6 : W6 m ρ c (Proc.devRef .tc main_arg6) = m ((c : Thread nD τ).loc main_arg6) :=
  (W6_of_ne m ρ c main_arg6 (by decide)).trans (W5_arg6 m ρ c)

theorem W6_v48 : W6 m ρ c (Proc.devRef .tc main_v48) = (layer2 (aggregate1 (layer1 (m ((c : Thread nD τ).loc main_arg0)) (m ((c : Thread nD τ).loc main_arg3))) (m ((c : Thread nD τ).loc main_arg1)) (m ((c : Thread nD τ).loc main_arg2))) (biasRow (m ((c : Thread nD τ).loc main_arg4))) (m ((c : Thread nD τ).loc main_arg5))) := by
  refine (W6_arr m ρ c 3).trans ((Cert.KernelIdeal.Blocks1.array1 (V5 m ρ) c).trans ?_)
  show layer2 (W5 m ρ c (Proc.devRef .tc main_v46)) (W5 m ρ c (Proc.devRef .tc main_v47)) (W5 m ρ c (Proc.devRef .tc main_arg5)) = _
  rw [W5_v46, W5_v47, W5_arg5]

/-! ## After the second region: the second aggregation and the last bias -/

/-- The result buffer at the end of the run. -/
theorem W7_v65 : W7 m ρ c (Proc.devRef .tc main_v65) = aggregate2 (layer2 (aggregate1 (layer1 (m ((c : Thread nD τ).loc main_arg0)) (m ((c : Thread nD τ).loc main_arg3))) (m ((c : Thread nD τ).loc main_arg1)) (m ((c : Thread nD τ).loc main_arg2))) (biasRow (m ((c : Thread nD τ).loc main_arg4))) (m ((c : Thread nD τ).loc main_arg5))) (m ((c : Thread nD τ).loc main_arg1)) (m ((c : Thread nD τ).loc main_arg2)) (m ((c : Thread nD τ).loc main_arg6)) :=
  aggregate2_of (W6 m ρ c) _ _ _ _ ((W6_v5 m ρ c).trans (v52_eq _).symm) ((W6_v6 m ρ c).trans (v54_eq _).symm)
    ((W6_v31 m ρ c).trans (v79_eq _ _).symm) (W6_v48 m ρ c) (W6_arg6 m ρ c)

end Cert.KernelIdeal.Stages

end
-- ==== Proof.lean ====
/-
  A two-layer graph convolution, as a kernel and as its reference.

  Both programs append a self-loop to every node, weight 1, and normalise each edge's weight by the inverse square
  roots of its endpoints' degrees (the degree of a node is the sum of the weights of the edges arriving at it; where
  it is not positive the factor is zero).  A layer multiplies the node features by a weight matrix, gathers the
  products along the edges' source endpoints, scales each by its edge's normalised weight, adds them up at the
  target endpoints, and adds a bias; a rectifier sits between the two layers.

  The reference does this with one matrix product per layer on the host.  The kernel computes each layer's product
  in a region of 25 grid points, 4000 rows of the node array per point, in a narrower float format that is the
  identity on the extended reals; its second region also applies the first layer's bias and the rectifier before
  multiplying.  The kernel normalises the weights once, the reference once per layer: the same operations of the same
  arguments.  On the extended reals the blocks of a product are the rows of the whole product, so the two results
  are one function of the arguments:

      aggregate2 (layer2 (aggregate1 (layer1 x w₁) edges weights) (row b₁) w₂) edges weights b₂ .

  No algebraic law enters: each program's result is read operation by operation and the two readings coincide, so
  the inputs' finiteness is never used.
-/
import proofs.«144500_j29429115912800_2_alg».proof.Defs
import proofs.«144500_j29429115912800_2_alg».proof.Proof.Gen.Kernel
import proofs.«144500_j29429115912800_2_alg».proof.Proof.Gen.Kernel.Frame
import proofs.«144500_j29429115912800_2_alg».proof.Proof.Gen.KernelIdeal
import proofs.«144500_j29429115912800_2_alg».proof.Proof.Gen.KernelIdeal.Frame
import proofs.«144500_j29429115912800_2_alg».proof.Proof.Gen.ReferenceIdeal
import proofs.«144500_j29429115912800_2_alg».proof.Proof.Gen.ReferenceIdeal.Run
import proofs.«144500_j29429115912800_2_alg».proof.Proof.Gen.ReferenceIdeal.Read
import proofs.«144500_j29429115912800_2_alg».proof.Proof.Gen.Pre_finite_inputs
import proofs.«144500_j29429115912800_2_alg».proof.Proof.Spec
import proofs.«144500_j29429115912800_2_alg».proof.Proof.RefStages
import proofs.«144500_j29429115912800_2_alg».proof.Proof.KernelRun
import proofs.«144500_j29429115912800_2_alg».proof.Proof.HostStages
import Idealize.ShloMosaic.Adequacy
import Idealize.ShloMosaic.Init

noncomputable section

namespace Cert.Proof

open Idealize.ShloMosaic Idealize.ShloMosaic.TcCoe Idealize.SL.Sem
open Cert.Spec Cert.RefStages

/-- The kernel as printed runs, and its arguments end unchanged. -/
theorem frame_kernel : Cert.frame_Kernel :=
  fun m ρ _ => Cert.Kernel.Gen.frame m ρ

/-- The idealized kernel runs, and its arguments end unchanged. -/
theorem frame_kernelIdeal : Cert.frame_KernelIdeal :=
  fun m ρ _ => Cert.KernelIdeal.Gen.frame m ρ

/-- The idealized reference runs, and its arguments end unchanged: its run with the result dropped. -/
theorem frame_referenceIdeal : Cert.frame_ReferenceIdeal :=
  fun m ρ _ => (θ_run Cert.ReferenceIdeal.defs _ _).mono (fun _ h c => (h c).2)
    (Cert.ReferenceIdeal.Value.run (F := Idealize.ShloMosaic.Ideal) m ρ)

/-- The idealized kernel is the kernel's own text read on the extended reals: no operation was rewritten. -/
theorem preserves : Cert.preserves_Kernel_KernelIdeal := trivial

/-- On the extended reals the two programs, run from memories that agree on the arguments, both terminate with
    the same result: the kernel's result buffer ends at the second aggregation of its second region's array, that
    array is `layer2` of the first aggregation of the first region's array, and that is `layer1`; the reference's
    stages are the same functions. -/
theorem algebraic : Cert.algebraic_KernelIdeal_ReferenceIdeal := by
  intro m ρ m' ρ' _ hagree
  refine ⟨fun c => aggregate2
      (layer2 (aggregate1 (layer1 (m ((c.tc : Thread Cert.KernelIdeal.nD Cert.KernelIdeal.τ).loc Cert.KernelIdeal.main_arg0))
            (m ((c.tc : Thread Cert.KernelIdeal.nD Cert.KernelIdeal.τ).loc Cert.KernelIdeal.main_arg3)))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)))
        (biasRow (m ((c.tc : Thread Cert.KernelIdeal.nD Cert.KernelIdeal.τ).loc Cert.KernelIdeal.main_arg4)))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Stages.W7_v65 m ρ c), (h c).2⟩)
      (Cert.KernelIdeal.Run.run_result (F := Idealize.ShloMosaic.Ideal) m ρ)
  · refine (θ_run Cert.ReferenceIdeal.defs _ _).mono (fun r h c => ⟨(h c).1.trans ?_, (h c).2⟩)
      (Cert.ReferenceIdeal.Value.run (F := Idealize.ShloMosaic.Ideal) m' ρ')
    obtain ⟨e0, e1, e2, e3, e4, e5, e6⟩ := hagree c
    rw [Cert.ReferenceIdeal.Read.val_main_v96_eq, e0, e1, e2, e3, e4, e5, e6, v96_eq, v80_eq, v46_eq, v33_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
